-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 77
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000x1, .f32⟩
  | .hbm, ⟨48, _⟩ => ⟨S1600000x128, .f32⟩
  | .hbm, ⟨49, _⟩ => ⟨S1600000x128, .f32⟩
  | .hbm, ⟨50, _⟩ => ⟨S1600000x128, .bf16⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x1, .f32⟩
  | .hbm, ⟨58, _⟩ => ⟨S1x128, .f32⟩
  | .hbm, ⟨59, _⟩ => ⟨S100000x128, .bf16⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .bf16⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x1, .f32⟩
  | .hbm, ⟨75, _⟩ => ⟨S1x64, .f32⟩
  | .hbm, ⟨76, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_c_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bitsLt_bf16_f32 : FTy.bits .bf16 < FTy.bits .f32
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v36) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run, with its result array named.

  @main is four segments: a stretch of host operations, the first dense layer's pallas_call, a second
  stretch of host operations, the second dense layer's pallas_call.  Write `W1 … W4` for the buffer
  contents at the four segment boundaries: a stretch applies its operations to the contents it is
  entered from, a pallas_call replaces its arrays by what its write-backs leave and keeps every other
  buffer.  Every weakly fair execution of @main terminates without a fault, and in every final state
  each unscoped buffer of each core holds `W4` (`run_all`).  In particular the result array ends at
  `W4`'s contents of the result buffer and the seven arguments end as launched, since no segment
  writes an argument (`run_result`).
-/
import proofs.«174261_j77584289235636_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each
    unscoped buffer of each core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result array named: it ends at `W4`'s contents of the result buffer, and the seven
    arguments end as launched (no segment writes one). -/
theorem run_result : θ_run defs (onTc (τ := τ) (main (F := F))) ⟨m, fun _ => 0, ρ⟩ (fun r => ∀ c : Dev nD,
      r.2.mem ((c.tc : Thread nD τ).loc main_v54) = W4 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v54 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (run_all m ρ)

end Cert.KernelIdeal.Whole

end
-- ==== Proof.Layer1Block.lean ====
/-
  One grid point of the first dense layer, read at an index.

  The body loads a block `x0` of 5000 rows of the aggregated messages, the same rows `x1` of the in-degree
  column and `x2` of the out-degree column, the whole weight matrix `x3` and the bias row `x4`, and stores one value.  Over the
  extended reals a change of float format is the identity, a broadcast of a column repeats its entry along
  the row, a broadcast of a row repeats it down the rows, and the matrix product into a zero accumulator is
  the plain sum over the contracted axis.  So entry (p, q) of the stored value is
      max ((∑ k, (x0[p,k] · x1[p,0]) · x3[k,q]) + x4[0,q]) 0 · x2[p,0].
-/
import proofs.«174261_j77584289235636_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Layer1Block

open Cert.KernelIdeal Cert.KernelIdeal.Gen Idealize.ShloMosaic Idealize.ShloMosaic.ValueIdx

/-- A column broadcast along the row: entry (p, k) is the column's entry of row p. -/
theorem col_bcast (x : Vec Ideal S5000x1 .f32) (h : S5000x1.Broadcasts S5000x128) (p : Fin 5000) (k : Fin 128) :
    broadcastTo S5000x128 x h (ix2 p k) = x (ix2 p 0) :=
  broadcastTo_apply x h (ix2 p k) (ix2 p 0) (fun a => by
    match a with
    | ⟨0, _⟩ => rfl
    | ⟨1, _⟩ => rfl)

/-- A row broadcast down the rows: entry (p, q) is the row's entry of column q. -/
theorem row_bcast (x : Vec Ideal S1x128 .f32) (h : S1x128.Broadcasts S5000x128) (p : Fin 5000) (q : Fin 128) :
    broadcastTo S5000x128 x h (ix2 p q) = x (ix2 0 q) :=
  broadcastTo_apply x h (ix2 p q) (ix2 0 q) (fun a => by
    match a with
    | ⟨0, _⟩ => rfl
    | ⟨1, _⟩ => rfl)

/-! The product's operand indices: the left operand is read at (row of the result, contracted index), the
    right one at (contracted index, column of the result). -/

theorem mm_l0 (i : S5000x128.Idx) (u : dot_S5000x128_S128x128_S5000x128_1_0_0_1_n_n.contr.Idx) : (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_l1 (i : S5000x128.Idx) (u : dot_S5000x128_S128x128_S5000x128_1_0_0_1_n_n.contr.Idx) : (dot_S5000x128_S128x128_S5000x128_1_0_0_1_n_n.lhsIdx i u 1).val = (u ⟨0, by decide⟩).val :=
  dot_S5000x128_S128x128_S5000x128_1_0_0_1_n_n.lhsIdx_val_of_single rfl i u
theorem mm_r0 (i : S5000x128.Idx) (u : dot_S5000x128_S128x128_S5000x128_1_0_0_1_n_n.contr.Idx) : (dot_S5000x128_S128x128_S5000x128_1_0_0_1_n_n.rhsIdx i u 0).val = (u ⟨0, by decide⟩).val :=
  dot_S5000x128_S128x128_S5000x128_1_0_0_1_n_n.rhsIdx_val_of_single rfl i u
theorem mm_r1 (i : S5000x128.Idx) (u : dot_S5000x128_S128x128_S5000x128_1_0_0_1_n_n.contr.Idx) : (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into the zero accumulator at (p, q): the sum over the 128 contracted indices. -/
theorem mm_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact mm_l0 _ _
      | ⟨1, _⟩ => exact (mm_l1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (mm_r0 _ _).trans hk
      | ⟨1, _⟩ => exact mm_r1 _ _)
  rw [el, er]

/-- THE STORED VALUE at (p, q), as a function of the loaded blocks. -/
theorem pay_at (x0 : Vec Ideal S5000x128 .f32) (x1 x2 : Vec Ideal S5000x1 .f32) (x3 : Vec Ideal S128x128 .f32) (x4 : Vec Ideal S1x128 .f32)
    (p : Fin 5000) (q : Fin 128) :
    k0_pay1 (F := Ideal) x0 x1 x3 x4 x2 (ix2 p q)
      = max ((∑ k : Fin 128, (x0 (ix2 p k) * x1 (ix2 p 0)) * x3 (ix2 k q)) + x4 (ix2 0 q)) (Ideal.ofBits .f32 0x00000000#32) * x2 (ix2 p 0) := by
  unfold k0_pay1
  simp only [shapeCast_self]
  show max (matmul dot_S5000x128_S128x128_S5000x128_1_0_0_1_n_n none (truncf .bf16 (mulf x0 (broadcastTo S5000x128 x1 broadcasts_S5000x1_S5000x128)) bitsLt_bf16_f32)
        (truncf .bf16 x3 bitsLt_bf16_f32) (constant (F := Ideal) S5000x128 .f32 0x00000000#32) (ix2 p q)
      + broadcastTo S5000x128 x4 broadcasts_S1x128_S5000x128 (ix2 p q)) (Ideal.ofBits .f32 0x00000000#32)
      * broadcastTo S5000x128 x2 broadcasts_S5000x1_S5000x128 (ix2 p q) = _
  rw [mm_at, row_bcast, col_bcast]
  refine congrArg (fun z => max (z + x4 (ix2 0 q)) (Ideal.ofBits .f32 0x00000000#32) * x2 (ix2 p 0)) ?_
  refine Finset.sum_congr rfl fun k _ => ?_
  show (x0 (ix2 p k) * broadcastTo S5000x128 x1 broadcasts_S5000x1_S5000x128 (ix2 p k)) * x3 (ix2 k q) = _
  rw [col_bcast]

end Cert.KernelIdeal.Layer1Block

end
-- ==== Proof.Dense.lean ====
/-
  The two dense layers of the graph convolution, as functions of whole arrays, index by index.

  A layer takes the aggregated messages `a` (one row per node), the column `tc` of inverse square
  roots of the in-degrees, a weight matrix `W` and a bias row `b`.  Row `r`, column `q` of the second
  layer is
      (∑ k, (a[r,k] · tc[r,0]) · W[k,q]) + b[0,q];
  the first layer takes the maximum of that with zero and scales the row by the column `sc` of inverse
  square roots of the out-degrees, ready to be gathered by the next layer:
      max ((∑ k, (a[r,k] · tc[r,0]) · W[k,q]) + b[0,q]) 0 · sc[r,0].
  Everything is over the extended reals; no operation is reordered, so no finiteness is needed anywhere.
-/
import Idealize.ShloMosaic.PureOps.Ideal
import Idealize.ShloMosaic.Lib.ValueIdx

noncomputable section

namespace Cert.Dense

open Idealize.ShloMosaic Idealize.ShloMosaic.ValueIdx

/-- An extended-real matrix of literal extents. -/
abbrev Mat (r c : Nat) : Type := (⟨2, ![r, c]⟩ : Shape).Idx → EReal

/-- The affine part both layers share, at row `r` and column `q`: the row of `a` scaled by its entry of `tc`,
    against column `q` of `W`, plus the bias. -/
def affineAt {n : Nat} (a : Mat 100000 128) (tc : Mat 100000 1) (W : Mat 128 n) (b : Mat 1 n)
    (r : Fin 100000) (q : Fin n) : EReal :=
  (∑ k : Fin 128, (a (ix2 r k) * tc (ix2 r 0)) * W (ix2 k q)) + b (ix2 0 q)

/-- The first layer at row `r`, column `q`: the affine part cut off below at zero, scaled by `sc`'s entry of the row. -/
def layer1At (a : Mat 100000 128) (tc sc : Mat 100000 1) (W : Mat 128 128) (b : Mat 1 128)
    (r : Fin 100000) (q : Fin 128) : EReal :=
  max (affineAt a tc W b r q) (Ideal.ofBits .f32 0x00000000#32) * sc (ix2 r 0)

/-- The first layer's whole result. -/
def layer1 (a : Mat 100000 128) (tc sc : Mat 100000 1) (W : Mat 128 128) (b : Mat 1 128) : Mat 100000 128 :=
  fun i => layer1At a tc sc W b (i 0) (i 1)

/-- The second layer's whole result: the affine part alone. -/
def layer2 (a : Mat 100000 128) (tc : Mat 100000 1) (W : Mat 128 64) (b : Mat 1 64) : Mat 100000 64 :=
  fun i => affineAt a tc W b (i 0) (i 1)

end Cert.Dense

end
-- ==== Proof.Layer1Array.lean ====
/-
  The first dense layer's pallas_call as one function of the arrays it is entered with.

  The grid has 20 points.  Point t reads rows 5000·t … 5000·t + 4999 of the aggregated messages and of the
  degree columns, the whole weight matrix and the whole bias row, and writes back rows 5000·t … 5000·t + 4999
  of the result.  Entry (p, q) of what point t writes is the layer's entry (5000·t + p, q) of the WHOLE arrays
  (`flushed_eq`: each loaded block read where the written rows say).  Row r of the result lies in the block
  of point r / 5000, so the blocks cover the result (`cover`), and the result array after the call is the
  layer of the whole arrays (`final`).  All this for ANY contents `V` the call is entered with.
-/
import proofs.«174261_j77584289235636_2_alg».proof.Proof.Gen.KernelIdeal.Frame
import proofs.«174261_j77584289235636_2_alg».proof.Proof.Layer1Block
import proofs.«174261_j77584289235636_2_alg».proof.Proof.Dense

set_option maxRecDepth 16384

noncomputable section

namespace Cert.KernelIdeal.Layer1Array

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the layer of the whole arrays. -/
theorem flushed_eq (c : Dev nD) (t : Fin cfg0.N) :
    (dat0 V c).flushed 5 t = ((cfg0.win 5).blk t).view.read (Elt Ideal)
      (Cert.Dense.layer1 (V c main_v36) (V c main_v37) (V c main_v38) (V c main_arg1) (V c main_v39)) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨e00, e01, e10, e11, e20, e21, e30, e31, e40, e41, e50, e51⟩ := idx_facts t
  have hp : p.val < 5000 := p.isLt
  have ht : t.val < 20 := lt_of_lt_of_eq t.isLt N_0
  have hR : t.val * 5000 + p.val < 100000 := by omega
  have h0 : ∀ k : Fin 128, iblk0 V c 0 t (ix2 p k) = V c main_v36 (ix2 ⟨t.val * 5000 + p.val, hR⟩ k) := fun k => by
    show V c main_v36 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : iblk0 V c 1 t (ix2 p 0) = V c main_v37 (ix2 ⟨t.val * 5000 + p.val, hR⟩ 0) := by
    show V c main_v37 (((cfg0.win 1).blk t).view.emb (ix2 p 0)) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  have h2 : iblk0 V c 2 t (ix2 p 0) = V c main_v38 (ix2 ⟨t.val * 5000 + p.val, hR⟩ 0) := by
    show V c main_v38 (((cfg0.win 2).blk t).view.emb (ix2 p 0)) = _
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  have h3 : ∀ k : Fin 128, iblk0 V c 3 t (ix2 k q) = V c main_arg1 (ix2 k q) := fun k => by
    show V c main_arg1 (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have h4 : iblk0 V c 4 t (ix2 0 q) = V c main_v39 (ix2 0 q) := by
    show V c main_v39 (((cfg0.win 4).blk t).view.emb (ix2 0 q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  have hout : ((cfg0.win 5).blk t).view.emb (ix2 p q) = ix2 ⟨t.val * 5000 + p.val, hR⟩ q := by
    refine funext fun a => Fin.ext ?_
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk0 V c 0 t) (iblk0 V c 1 t) (iblk0 V c 3 t) (iblk0 V c 4 t) (iblk0 V c 2 t) (ix2 p q)
    = Cert.Dense.layer1 (V c main_v36) (V c main_v37) (V c main_v38) (V c main_arg1) (V c main_v39) (((cfg0.win 5).blk t).view.emb (ix2 p q))
  refine (Layer1Block.pay_at (iblk0 V c 0 t) (iblk0 V c 1 t) (iblk0 V c 2 t) (iblk0 V c 3 t) (iblk0 V c 4 t) p q).trans ?_
  rw [hout, h1, h2, h4, Finset.sum_congr rfl (fun k _ => by rw [h0 k, h3 k])]
  rfl

/-- An index of the result is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v40).slice (win0_5.rect t)).set ↔ _
  rw [View.set_slice_whole, Rect.mem_set_unit]
  exact Iff.rfl

theorem idx_onto : ∀ u : Fin 20, ∃ t : Fin cfg0.N, t.val = u.val :=
  (by decide +kernel : ∀ u : Fin 20, ∃ t : Fin grid0.N, t.val = u.val)

/-- Every index of the result lies in the block of the point its row belongs to. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  obtain ⟨e00, e01, e10, e11, e20, e21, e30, e31, e40, e41, e50, e51⟩ := idx_facts t
  have ht' : t.val = (i 0).val / 5000 := ht
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the call: the layer of the arrays the call was entered with. -/
theorem final (c : Dev nD) : (dat0 V c).arrAt 5 cfg0.N
    = Cert.Dense.layer1 (V c main_v36) (V c main_v37) (V c main_v38) (V c main_arg1) (V c main_v39) :=
  (dat0 V c).arrAt_eq_of_cover 5 _ (fun t _ => flushed_eq V c t) cover

end Cert.KernelIdeal.Layer1Array

end
-- ==== Proof.Layer2Block.lean ====
/-
  One grid point of the second dense layer, read at an index.

  The body loads a block `x0` of 5000 rows of the aggregated messages, the same rows `x1` of the in-degree
  column, the whole weight matrix `x3` and the bias row `x4`, and stores one value.  Over the
  extended reals a change of float format is the identity, a broadcast of a column repeats its entry along
  the row, a broadcast of a row repeats it down the rows, and the matrix product into a zero accumulator is
  the plain sum over the contracted axis.  So entry (p, q) of the stored value is
      (∑ k, (x0[p,k] · x1[p,0]) · x3[k,q]) + x4[0,q].
-/
import proofs.«174261_j77584289235636_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Layer2Block

open Cert.KernelIdeal Cert.KernelIdeal.Gen Idealize.ShloMosaic Idealize.ShloMosaic.ValueIdx

/-- A column broadcast along the row: entry (p, k) is the column's entry of row p. -/
theorem col_bcast (x : Vec Ideal S5000x1 .f32) (h : S5000x1.Broadcasts S5000x128) (p : Fin 5000) (k : Fin 128) :
    broadcastTo S5000x128 x h (ix2 p k) = x (ix2 p 0) :=
  broadcastTo_apply x h (ix2 p k) (ix2 p 0) (fun a => by
    match a with
    | ⟨0, _⟩ => rfl
    | ⟨1, _⟩ => rfl)

/-- A row broadcast down the rows: entry (p, q) is the row's entry of column q. -/
theorem row_bcast (x : Vec Ideal S1x64 .f32) (h : S1x64.Broadcasts S5000x64) (p : Fin 5000) (q : Fin 64) :
    broadcastTo S5000x64 x h (ix2 p q) = x (ix2 0 q) :=
  broadcastTo_apply x h (ix2 p q) (ix2 0 q) (fun a => by
    match a with
    | ⟨0, _⟩ => rfl
    | ⟨1, _⟩ => rfl)

/-! The product's operand indices: the left operand is read at (row of the result, contracted index), the
    right one at (contracted index, column of the result). -/

theorem mm_l0 (i : S5000x64.Idx) (u : dot_S5000x128_S128x64_S5000x64_1_0_0_1_n_n.contr.Idx) : (dot_S5000x128_S128x64_S5000x64_1_0_0_1_n_n.lhsIdx i u 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem mm_l1 (i : S5000x64.Idx) (u : dot_S5000x128_S128x64_S5000x64_1_0_0_1_n_n.contr.Idx) : (dot_S5000x128_S128x64_S5000x64_1_0_0_1_n_n.lhsIdx i u 1).val = (u ⟨0, by decide⟩).val :=
  dot_S5000x128_S128x64_S5000x64_1_0_0_1_n_n.lhsIdx_val_of_single rfl i u
theorem mm_r0 (i : S5000x64.Idx) (u : dot_S5000x128_S128x64_S5000x64_1_0_0_1_n_n.contr.Idx) : (dot_S5000x128_S128x64_S5000x64_1_0_0_1_n_n.rhsIdx i u 0).val = (u ⟨0, by decide⟩).val :=
  dot_S5000x128_S128x64_S5000x64_1_0_0_1_n_n.rhsIdx_val_of_single rfl i u
theorem mm_r1 (i : S5000x64.Idx) (u : dot_S5000x128_S128x64_S5000x64_1_0_0_1_n_n.contr.Idx) : (dot_S5000x128_S128x64_S5000x64_1_0_0_1_n_n.rhsIdx i u 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into the zero accumulator at (p, q): the sum over the 128 contracted indices. -/
theorem mm_at (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact mm_l0 _ _
      | ⟨1, _⟩ => exact (mm_l1 _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (mm_r0 _ _).trans hk
      | ⟨1, _⟩ => exact mm_r1 _ _)
  rw [el, er]

/-- THE STORED VALUE at (p, q), as a function of the loaded blocks. -/
theorem pay_at (x0 : Vec Ideal S5000x128 .f32) (x1 : Vec Ideal S5000x1 .f32) (x3 : Vec Ideal S128x64 .f32) (x4 : Vec Ideal S1x64 .f32)
    (p : Fin 5000) (q : Fin 64) :
    k1_pay1 (F := Ideal) x0 x1 x3 x4 (ix2 p q)
      = (∑ k : Fin 128, (x0 (ix2 p k) * x1 (ix2 p 0)) * x3 (ix2 k q)) + x4 (ix2 0 q) := by
  unfold k1_pay1
  simp only [shapeCast_self]
  show matmul dot_S5000x128_S128x64_S5000x64_1_0_0_1_n_n none (truncf .bf16 (mulf x0 (broadcastTo S5000x128 x1 broadcasts_S5000x1_S5000x128)) bitsLt_bf16_f32)
        (truncf .bf16 x3 bitsLt_bf16_f32) (constant (F := Ideal) S5000x64 .f32 0x00000000#32) (ix2 p q)
      + broadcastTo S5000x64 x4 broadcasts_S1x64_S5000x64 (ix2 p q) = _
  rw [mm_at, row_bcast]
  refine congrArg (fun z => z + x4 (ix2 0 q)) ?_
  refine Finset.sum_congr rfl fun k _ => ?_
  show (x0 (ix2 p k) * broadcastTo S5000x128 x1 broadcasts_S5000x1_S5000x128 (ix2 p k)) * x3 (ix2 k q) = _
  rw [col_bcast]

end Cert.KernelIdeal.Layer2Block

end
-- ==== Proof.Layer2Array.lean ====
/-
  The second dense layer's pallas_call as one function of the arrays it is entered with.

  The grid has 20 points.  Point t reads rows 5000·t … 5000·t + 4999 of the aggregated messages and of the
  degree column, the whole weight matrix and the whole bias row, and writes back rows 5000·t … 5000·t + 4999
  of the result.  Entry (p, q) of what point t writes is the layer's entry (5000·t + p, q) of the WHOLE arrays
  (`flushed_eq`: each loaded block read where the written rows say).  Row r of the result lies in the block
  of point r / 5000, so the blocks cover the result (`cover`), and the result array after the call is the
  layer of the whole arrays (`final`).  All this for ANY contents `V` the call is entered with.
-/
import proofs.«174261_j77584289235636_2_alg».proof.Proof.Gen.KernelIdeal.Frame
import proofs.«174261_j77584289235636_2_alg».proof.Proof.Layer2Block
import proofs.«174261_j77584289235636_2_alg».proof.Proof.Dense

set_option maxRecDepth 16384

noncomputable section

namespace Cert.KernelIdeal.Layer2Array

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row blocks move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the layer of the whole arrays. -/
theorem flushed_eq (c : Dev nD) (t : Fin cfg1.N) :
    (dat1 V c).flushed 4 t = ((cfg1.win 4).blk t).view.read (Elt Ideal)
      (Cert.Dense.layer2 (V c main_v51) (V c main_v52) (V c main_arg3) (V c main_v53)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  obtain ⟨e00, e01, e10, e11, e20, e21, e30, e31, e40, e41⟩ := idx_facts t
  have hp : p.val < 5000 := p.isLt
  have ht : t.val < 20 := lt_of_lt_of_eq t.isLt N_1
  have hR : t.val * 5000 + p.val < 100000 := by omega
  have h0 : ∀ k : Fin 128, iblk1 V c 0 t (ix2 p k) = V c main_v51 (ix2 ⟨t.val * 5000 + p.val, hR⟩ k) := fun k => by
    show V c main_v51 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : iblk1 V c 1 t (ix2 p 0) = V c main_v52 (ix2 ⟨t.val * 5000 + p.val, hR⟩ 0) := by
    show V c main_v52 (((cfg1.win 1).blk t).view.emb (ix2 p 0)) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  have h2 : ∀ k : Fin 128, iblk1 V c 2 t (ix2 k q) = V c main_arg3 (ix2 k q) := fun k => by
    show V c main_arg3 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 64 + 1 * q.val = q.val; omega
  have h3 : iblk1 V c 3 t (ix2 0 q) = V c main_v53 (ix2 0 q) := by
    show V c main_v53 (((cfg1.win 3).blk t).view.emb (ix2 0 q)) = _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  have hout : ((cfg1.win 4).blk t).view.emb (ix2 p q) = ix2 ⟨t.val * 5000 + p.val, hR⟩ q := by
    refine funext fun a => Fin.ext ?_
    match a with
    | ⟨0, _⟩ => show win1_4.index t (0 : Fin 2) * 5000 + 1 * p.val = t.val * 5000 + p.val; omega
    | ⟨1, _⟩ => show win1_4.index t (1 : Fin 2) * 64 + 1 * q.val = q.val; omega
  show k1_pay1 (F := Ideal) (iblk1 V c 0 t) (iblk1 V c 1 t) (iblk1 V c 2 t) (iblk1 V c 3 t) (ix2 p q)
    = Cert.Dense.layer2 (V c main_v51) (V c main_v52) (V c main_arg3) (V c main_v53) (((cfg1.win 4).blk t).view.emb (ix2 p q))
  refine (Layer2Block.pay_at (iblk1 V c 0 t) (iblk1 V c 1 t) (iblk1 V c 2 t) (iblk1 V c 3 t) p q).trans ?_
  rw [hout, h1, h3, Finset.sum_congr rfl (fun k _ => by rw [h0 k, h2 k])]
  rfl

/-- An index of the result is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v54).slice (win1_4.rect t)).set ↔ _
  rw [View.set_slice_whole, Rect.mem_set_unit]
  exact Iff.rfl

theorem idx_onto : ∀ u : Fin 20, ∃ t : Fin cfg1.N, t.val = u.val :=
  (by decide +kernel : ∀ u : Fin 20, ∃ t : Fin grid1.N, t.val = u.val)

/-- Every index of the result lies in the block of the point its row belongs to. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 5000, by omega⟩
  obtain ⟨e00, e01, e10, e11, e20, e21, e30, e31, e40, e41⟩ := idx_facts t
  have ht' : t.val = (i 0).val / 5000 := ht
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE RESULT ARRAY after the call: the layer of the arrays the call was entered with. -/
theorem final (c : Dev nD) : (dat1 V c).arrAt 4 cfg1.N
    = Cert.Dense.layer2 (V c main_v51) (V c main_v52) (V c main_arg3) (V c main_v53) :=
  (dat1 V c).arrAt_eq_of_cover 4 _ (fun t _ => flushed_eq V c t) cover

end Cert.KernelIdeal.Layer2Array

end
-- ==== Proof.HostSide.lean ====
/-
  The idealized kernel's result array as ONE term of the seven arguments.

  Both programs compute, for each node, the inverse square root of its degree cut off below at one
  (`invSqrtDeg`: the number of edges naming the node, by a scatter-add of ones), read the edges' source
  rows through the same clamped index array (`srcRows`) and sum messages into their destination nodes
  (`aggregate`).  The kernel's first messages are the gathered feature rows scaled by the gathered scale of
  their source (`messages1`); its first pallas_call is the first dense layer of the aggregated messages
  (`firstLayer`, by the layer's array theorem at the contents the call is entered with, which the host operations
  before it determine); its second messages are the gathered rows of that (`messages2`); its second
  pallas_call is the second dense layer (`result`).  A reshape of a vector into a column or of the bias
  into a row is `column`, `biasRow1`, `biasRow2`.  The arguments are read through the segments unchanged,
  since no segment writes one.
-/
import proofs.«174261_j77584289235636_2_alg».proof.Proof.Gen.KernelIdeal.Frame
import proofs.«174261_j77584289235636_2_alg».proof.Proof.Layer1Array
import proofs.«174261_j77584289235636_2_alg».proof.Proof.Layer2Array
import proofs.«174261_j77584289235636_2_alg».proof.Proof.Dense
import Idealize.ShloMosaic.Lib.StableHlo.Run

set_option maxRecDepth 16384

noncomputable section
namespace Cert.KernelIdeal.HostSide
open Cert.KernelIdeal Cert.KernelIdeal.Gen Idealize.ShloMosaic Idealize.ShloMosaic.TcCoe Idealize.ShloMosaic.ValueIdx Idealize.SL.Sem Idealize.ShloMosaic.StableHlo

def invSqrtDeg (x : IVec S1600000 32) : FVec Ideal S100000 .f32 :=
  Host.powf (maximumf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 x)
      (broadcastInDim S1600000 ![] bcast_S_S1600000 (constant (F := Ideal) S_ .f32 0x3F800000#32)))
    (broadcastInDim S100000 ![] bcast_S_S100000 (constant (F := Ideal) S_ .f32 0x3F800000#32)))
    (broadcastInDim S100000 ![] bcast_S_S100000 (constant (F := Ideal) S_ .f32 0xBF000000#32))

def srcRows (x5 : IVec S1600000 32) : IVec S1600000x1 32 :=
  broadcastInDim S1600000x1 ![0] bcast_S1600000_S1600000x1_0
    (select (cmpi .slt x5 (broadcastInDim S1600000 ![] bcast_S_S1600000 (constantI S_ 32 0#32)))
      (addi x5 (broadcastInDim S1600000 ![] bcast_S_S1600000 (constantI S_ 32 100000#32))) x5)

def aggregate (msg : FVec Ideal S1600000x128 .f32) (x6 : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x6) msg

def messages1 (x0 : FVec Ideal S100000x128 .f32) (x5 : IVec S1600000 32) : FVec Ideal S1600000x128 .f32 :=
  extf .f32 (truncf .bf16 (mulf (Host.gather gather_S100000x128_S1600000x1_S1600000x128_1_0_n_n_0_1_1128 x0 (srcRows x5))
    (broadcastInDim S1600000x128 ![0, 1] bcast_S1600000x1_S1600000x128_0_1
      (broadcastInDim S1600000x1 ![0] bcast_S1600000_S1600000x1_0 (Host.gather gather_S100000_S1600000x1_S1600000_n_0_n_n_0_1_1 (invSqrtDeg x5) (srcRows x5)))))
    bitsLt_bf16_f32) bitsLt_bf16_f32

def column (v : FVec Ideal S100000 .f32) : FVec Ideal S100000x1 .f32 := shapeCast S100000x1 v shapeCasts_S100000_S100000x1
def biasRow1 (b : FVec Ideal S128 .f32) : FVec Ideal S1x128 .f32 := shapeCast S1x128 b shapeCasts_S128_S1x128
def biasRow2 (b : FVec Ideal S64 .f32) : FVec Ideal S1x64 .f32 := shapeCast S1x64 b shapeCasts_S64_S1x64

variable (m : (ℓ : Loc nD τ sig) → Buf (Elt Ideal) ℓ) (ρ : Dev nD → PrngReg)

theorem entry36 (c : Dev nD) : V1 m ρ c main_v36
    = aggregate (messages1 (m ((c : Thread nD τ).loc main_arg0)) (m ((c : Thread nD τ).loc main_arg5))) (m ((c : Thread nD τ).loc main_arg6)) := by
  show StableHlo.after hostOps0 (W0 m ρ c) (Proc.devRef .tc main_v36) = _
  after_results_simp <;> rfl

theorem entry37 (c : Dev nD) : V1 m ρ c main_v37 = column (invSqrtDeg (m ((c : Thread nD τ).loc main_arg6))) := by
  show StableHlo.after hostOps0 (W0 m ρ c) (Proc.devRef .tc main_v37) = _
  after_results_simp <;> rfl

theorem entry38 (c : Dev nD) : V1 m ρ c main_v38 = column (invSqrtDeg (m ((c : Thread nD τ).loc main_arg5))) := by
  show StableHlo.after hostOps0 (W0 m ρ c) (Proc.devRef .tc main_v38) = _
  after_results_simp <;> rfl

theorem entry_w1 (c : Dev nD) : V1 m ρ c main_arg1 = (m ((c : Thread nD τ).loc main_arg1)) := by
  show StableHlo.after hostOps0 (W0 m ρ c) (Proc.devRef .tc main_arg1) = _
  after_results_simp <;> rfl

theorem entry39 (c : Dev nD) : V1 m ρ c main_v39 = biasRow1 (m ((c : Thread nD τ).loc main_arg2)) := by
  show StableHlo.after hostOps0 (W0 m ρ c) (Proc.devRef .tc main_v39) = _
  after_results_simp <;> rfl

/-- The first pallas_call's result: the first dense layer of the aggregated first messages. -/
def firstLayer (x0 : FVec Ideal S100000x128 .f32) (x1 : FVec Ideal S128x128 .f32) (x2 : FVec Ideal S128 .f32)
    (x5 x6 : IVec S1600000 32) : FVec Ideal S100000x128 .bf16 :=
  Cert.Dense.layer1 (aggregate (messages1 x0 x5) x6) (column (invSqrtDeg x6)) (column (invSqrtDeg x5)) x1 (biasRow1 x2)

theorem exit40 (c : Dev nD) : W2 m ρ c (Proc.devRef .tc main_v40) = firstLayer (m ((c : Thread nD τ).loc main_arg0)) (m ((c : Thread nD τ).loc main_arg1)) (m ((c : Thread nD τ).loc main_arg2)) (m ((c : Thread nD τ).loc main_arg5)) (m ((c : Thread nD τ).loc main_arg6)) := by
  refine (W2_arr m ρ c 5).trans ?_
  rw [Layer1Array.final (V1 m ρ) c, entry36, entry37, entry38, entry_w1, entry39]
  rfl

/-! What the second stretch of host operations is entered with: the arguments and the in-degree scale as the
    first stretch left them (the first pallas_call writes none of them). -/

theorem W2_arg3 (c : Dev nD) : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    after_results_simp <;> rfl)
theorem W2_arg4 (c : Dev nD) : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results_simp <;> rfl)
theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)
theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)
theorem W2_v14 (c : Dev nD) : W2 m ρ c (Proc.devRef .tc main_v14) = invSqrtDeg (m ((c : Thread nD τ).loc main_arg6)) :=
  (W2_of_ne m ρ c main_v14 (by decide)).trans (by
    show StableHlo.after hostOps0 (W0 m ρ c) (Proc.devRef .tc main_v14) = _
    after_results_simp <;> rfl)

/-- The second messages: the rows of the first layer's result that the edges' sources name. -/
def messages2 (h : FVec Ideal S100000x128 .bf16) (x5 : IVec S1600000 32) : FVec Ideal S1600000x128 .f32 :=
  extf .f32 (Host.gather gather_S100000x128_S1600000x1_S1600000x128_1_0_n_n_0_1_1128 h (srcRows x5)) bitsLt_bf16_f32

/-! The second stretch of host operations, from ANY contents `Wv` it is entered with. -/

theorem tail51 (Wv : Valuation τ sig (Elt Ideal)) : StableHlo.after hostOps1 Wv (Proc.devRef .tc main_v51)
    = aggregate (messages2 (Wv (Proc.devRef .tc main_v40)) (Wv (Proc.devRef .tc main_arg5))) (Wv (Proc.devRef .tc main_arg6)) := by
  after_results_simp <;> rfl
theorem tail52 (Wv : Valuation τ sig (Elt Ideal)) : StableHlo.after hostOps1 Wv (Proc.devRef .tc main_v52)
    = column (Wv (Proc.devRef .tc main_v14)) := by
  after_results_simp <;> rfl
theorem tail_w2 (Wv : Valuation τ sig (Elt Ideal)) : StableHlo.after hostOps1 Wv (Proc.devRef .tc main_arg3)
    = Wv (Proc.devRef .tc main_arg3) := by
  after_results_simp <;> rfl
theorem tail53 (Wv : Valuation τ sig (Elt Ideal)) : StableHlo.after hostOps1 Wv (Proc.devRef .tc main_v53)
    = biasRow2 (Wv (Proc.devRef .tc main_arg4)) := by
  after_results_simp <;> rfl

/-- The kernel's result: the second dense layer of the aggregated second messages. -/
def result (x0 : FVec Ideal S100000x128 .f32) (x1 : FVec Ideal S128x128 .f32) (x2 : FVec Ideal S128 .f32)
    (x3 : FVec Ideal S128x64 .f32) (x4 : FVec Ideal S64 .f32) (x5 x6 : IVec S1600000 32) : FVec Ideal S100000x64 .f32 :=
  Cert.Dense.layer2 (aggregate (messages2 (firstLayer x0 x1 x2 x5 x6) x5) x6) (column (invSqrtDeg x6)) x3 (biasRow2 x4)

/-- THE RESULT ARRAY at the last boundary is `result` of the launch contents of the arguments. -/
theorem result_eq (c : Dev nD) : W4 m ρ c (Proc.devRef .tc main_v54)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 4).trans ?_
  rw [Layer2Array.final (V3 m ρ) c]
  show Cert.Dense.layer2 (StableHlo.after hostOps1 (W2 m ρ c) (Proc.devRef .tc main_v51)) (StableHlo.after hostOps1 (W2 m ρ c) (Proc.devRef .tc main_v52))
      (StableHlo.after hostOps1 (W2 m ρ c) (Proc.devRef .tc main_arg3)) (StableHlo.after hostOps1 (W2 m ρ c) (Proc.devRef .tc main_v53)) = _
  rw [tail51, tail52, tail_w2, tail53, exit40, W2_arg3, W2_arg4, W2_arg5, W2_arg6, W2_v14]
  rfl

end Cert.KernelIdeal.HostSide
end
-- ==== Proof.Messages.lean ====
/-
  Messages along the edges: gathering and scaling commute.

  An edge e carries the row of its source node.  `x[idx]` reads, for edge e, the row whose number is the
  start index of e read as a signed integer and clamped into 0 … 99999 (`rowOf`); the same index array
  picks the same node from a matrix of feature rows (`gather_rows_idx`) and from a vector with one entry
  per node (`gather_vec_idx`).  Hence the gathered row scaled by the gathered entry of a per-node scale
  is the gathered row of the scaled matrix (`scaled_messages`); carrying the message through the narrower
  float format and back is the identity on the extended reals.  Nothing here needs the index to be in
  range, and nothing is reordered.
-/
import proofs.«174261_j77584289235636_2_alg».proof.Proof.Gen.KernelIdeal
import Idealize.ShloMosaic.PureOps.Ideal
import Idealize.ShloMosaic.Lib.Pipeline.Value
import Idealize.ShloMosaic.Lib.ValueIdx

noncomputable section
namespace Cert.KernelIdeal.Messages
open Cert.KernelIdeal Cert.KernelIdeal.Gen Idealize.ShloMosaic Idealize.ShloMosaic.ValueIdx

variable {α : Type}

/-- The node an edge reads: its start index, read signed and clamped into the rows. -/
def rowOf (I : IVec S1600000x1 32) (e : Fin 1600000) : Fin 100000 :=
  ⟨min (I (ix2 e 0)).toInt.toNat 99999, by omega⟩

theorem gather_rows_idx (I : IVec S1600000x1 32) (e : Fin 1600000) (k : Fin 128) :
    gather_S100000x128_S1600000x1_S1600000x128_1_0_n_n_0_1_1128.operandIdx (ix2 e k) I = ix2 (rowOf I e) k := by
  generalize hj : (ix2 e k : S1600000x128.Idx) = j
  have hj0 : j 0 = e := by rw [← hj]
  have hj1 : j 1 = k := by rw [← hj]
  rw [← hj0, ← hj1]
  clear hj hj0 hj1
  funext a
  refine Fin.ext ?_
  match a with
  | ⟨0, _⟩ =>
    show gather_S100000x128_S1600000x1_S1600000x128_1_0_n_n_0_1_1128.start j I 0 + gather_S100000x128_S1600000x1_S1600000x128_1_0_n_n_0_1_1128.batchCoord j 0 + gather_S100000x128_S1600000x1_S1600000x128_1_0_n_n_0_1_1128.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S1600000x1_S1600000x128_1_0_n_n_0_1_1128.startIndexMap from List.mem_singleton.mpr rfl)]
    have hsi : gather_S100000x128_S1600000x1_S1600000x128_1_0_n_n_0_1_1128.siIdx j ⟨List.idxOf (0 : Fin 2) gather_S100000x128_S1600000x1_S1600000x128_1_0_n_n_0_1_1128.startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show gather_S100000x128_S1600000x1_S1600000x128_1_0_n_n_0_1_1128.start j I 1 + gather_S100000x128_S1600000x1_S1600000x128_1_0_n_n_0_1_1128.batchCoord j 1 + gather_S100000x128_S1600000x1_S1600000x128_1_0_n_n_0_1_1128.offCoord j 1 = _
    rw [GatherDims.batchCoord_eq_zero _ _ _ List.not_mem_nil]
    unfold GatherDims.start
    rw [dif_neg (show ¬ (1 : Fin 2) ∈ gather_S100000x128_S1600000x1_S1600000x128_1_0_n_n_0_1_1128.startIndexMap by decide)]
    unfold GatherDims.offCoord
    rw [dif_pos (show (1 : Fin 2) ∈ gather_S100000x128_S1600000x1_S1600000x128_1_0_n_n_0_1_1128.sKept by decide)]
    simp only [Nat.zero_add]
    rfl

theorem gather_vec_idx (I : IVec S1600000x1 32) (e' : Fin 1600000) :
    gather_S100000_S1600000x1_S1600000_n_0_n_n_0_1_1.operandIdx (ix1 e') I = ix1 (rowOf I e') := by
  generalize hj : (ix1 e' : S1600000.Idx) = e
  have hj0 : e 0 = e' := by rw [← hj]
  rw [← hj0]
  clear hj hj0
  funext a
  refine Fin.ext ?_
  match a with
  | ⟨0, _⟩ =>
    show gather_S100000_S1600000x1_S1600000_n_0_n_n_0_1_1.start e I 0 + gather_S100000_S1600000x1_S1600000_n_0_n_n_0_1_1.batchCoord e 0 + gather_S100000_S1600000x1_S1600000_n_0_n_n_0_1_1.offCoord e 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S100000_S1600000x1_S1600000_n_0_n_n_0_1_1.startIndexMap from List.mem_singleton.mpr rfl)]
    have hsi : gather_S100000_S1600000x1_S1600000_n_0_n_n_0_1_1.siIdx e ⟨List.idxOf (0 : Fin 1) gather_S100000_S1600000x1_S1600000_n_0_n_n_0_1_1.startIndexMap,
        List.idxOf_lt_length_iff.2 (List.mem_singleton.mpr rfl)⟩ = ix2 (e 0) 0 := by
      funext b; refine Fin.ext ?_
      match b with
      | ⟨0, _⟩ => rfl
      | ⟨1, _⟩ => rfl
    rw [hsi]
    rfl

/-- A vector made a column and repeated along the rows: entry (r, k) is the vector's entry r. -/
theorem col_rep {n c : Nat} (s : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (r : Fin n) (k : Fin c) :
    broadcastInDim ⟨2, ![n, c]⟩ ![0, 1] h2 (broadcastInDim ⟨2, ![n, 1]⟩ ![0] h1 s) (ix2 r k) = s (ix1 r) := by
  rw [broadcastInDim_apply ![0, 1] h2 _ (ix2 r k) (ix2 r 0) (fun a => by
    match a with
    | ⟨0, _⟩ =>
      show r.val = if n = 1 then 0 else r.val
      split
      · have := r.isLt; omega
      · rfl
    | ⟨1, _⟩ => rfl)]
  exact broadcastInDim_apply ![0] h1 s (ix2 r 0) (ix1 r) (fun a => by
    match a with
    | ⟨0, _⟩ =>
      show r.val = if n = 1 then 0 else r.val
      split
      · have := r.isLt; omega
      · rfl)

/-- GATHER THEN SCALE IS SCALE THEN GATHER.  Edge `e` reads node `rowOf I e` from both the feature rows and
    the scale vector, so scaling the gathered row by the gathered scale is gathering the scaled row; the
    round trip through the narrower float format is the identity on the extended reals. -/
theorem scaled_messages (x : FVec Ideal S100000x128 .f32) (s : FVec Ideal S100000 .f32) (I : IVec S1600000x1 32)
    (h1 : S1600000.BroadcastsInDim S1600000x1 ![0]) (h2 : S1600000x1.BroadcastsInDim S1600000x128 ![0, 1])
    (h1' : S100000.BroadcastsInDim (⟨2, ![100000, 1]⟩ : Shape) ![0])
    (h2' : (⟨2, ![100000, 1]⟩ : Shape).BroadcastsInDim S100000x128 ![0, 1])
    (hb : FTy.bf16.bits < FTy.f32.bits) :
    extf .f32 (truncf .bf16 (mulf (Host.gather gather_S100000x128_S1600000x1_S1600000x128_1_0_n_n_0_1_1128 x I)
        (broadcastInDim S1600000x128 ![0, 1] h2 (broadcastInDim S1600000x1 ![0] h1 (Host.gather gather_S100000_S1600000x1_S1600000_n_0_n_n_0_1_1 s I)))) hb) hb
      = Host.gather gather_S100000x128_S1600000x1_S1600000x128_1_0_n_n_0_1_1128 (mulf x (broadcastInDim S100000x128 ![0, 1] h2' (broadcastInDim (⟨2, ![100000, 1]⟩ : Shape) ![0] h1' s))) I := by
  funext j
  obtain ⟨e, k, rfl⟩ : ∃ (e : Fin 1600000) (k : Fin 128), j = ix2 e k := ⟨j 0, j 1, eq_ix2 j⟩
  show x (gather_S100000x128_S1600000x1_S1600000x128_1_0_n_n_0_1_1128.operandIdx (ix2 e k) I)
      * broadcastInDim S1600000x128 ![0, 1] h2 (broadcastInDim S1600000x1 ![0] h1 (Host.gather gather_S100000_S1600000x1_S1600000_n_0_n_n_0_1_1 s I)) (ix2 e k)
    = x (gather_S100000x128_S1600000x1_S1600000x128_1_0_n_n_0_1_1128.operandIdx (ix2 e k) I)
      * broadcastInDim S100000x128 ![0, 1] h2' (broadcastInDim (⟨2, ![100000, 1]⟩ : Shape) ![0] h1' s) (gather_S100000x128_S1600000x1_S1600000x128_1_0_n_n_0_1_1128.operandIdx (ix2 e k) I)
  rw [gather_rows_idx, col_rep, col_rep]
  show _ * s (gather_S100000_S1600000x1_S1600000_n_0_n_n_0_1_1.operandIdx (ix1 e) I) = _
  rw [gather_vec_idx]

end Cert.KernelIdeal.Messages
end
-- ==== Proof.RefLayers.lean ====
/-
  The reference's two dense stages are the shared dense layers of their operands.

  The reference scales the aggregated messages by the in-degree column broadcast along the rows, multiplies by
  the weights (a sum over the 128 contracted indices on the extended reals), adds the bias broadcast down the
  rows; after the first product it takes the maximum with zero and scales by the out-degree column.  Read at
  row r and column q, stage by stage, that is the dense layer's entry (r, q): `layer1_eq`, `layer2_eq`.
-/
import proofs.«174261_j77584289235636_2_alg».proof.Proof.Gen.ReferenceIdeal.Read
import proofs.«174261_j77584289235636_2_alg».proof.Proof.Dense

noncomputable section
namespace Cert.ReferenceIdeal.Layers
open Cert.ReferenceIdeal Cert.ReferenceIdeal.Gen Cert.ReferenceIdeal.Read Idealize.ShloMosaic Idealize.ShloMosaic.ValueIdx

theorem layer2_eq (x0 : FVec Ideal S100000x128 .f32) (x1 : FVec Ideal S128x128 .f32) (x2 : FVec Ideal S128 .f32)
    (x3 : FVec Ideal S128x64 .f32) (x4 : FVec Ideal S64 .f32) (x5 x6 : IVec S1600000 32) :
    val_main_v55 (F := Ideal) x0 x1 x2 x3 x4 x5 x6
      = Cert.Dense.layer2 (val_main_v48 (F := Ideal) x0 x1 x2 x5 x6) (val_main_v49 (F := Ideal) x6) x3 (val_main_v53 (F := Ideal) x4) := by
  funext i
  obtain ⟨r, q, rfl⟩ : ∃ (r : Fin 100000) (q : Fin 64), i = ix2 r q := ⟨i 0, i 1, eq_ix2 i⟩
  rw [val_main_v55_apply, val_main_v52_apply, val_main_v54_apply]
  have el : ∀ k : Fin 128, lidx_main_v52 (ix2 r q) k = ix2 r k := fun k => funext fun a => Fin.ext (by
    match a with
    | ⟨0, _⟩ => rfl
    | ⟨1, _⟩ => rfl)
  have er : ∀ k : Fin 128, ridx_main_v52 (ix2 r q) k = ix2 k q := fun k => funext fun a => Fin.ext (by
    match a with
    | ⟨0, _⟩ => rfl
    | ⟨1, _⟩ => rfl)
  have eb : idx_main_v54 (ix2 r q) = ix2 0 q := funext fun a => Fin.ext (by
    match a with
    | ⟨0, _⟩ => rfl
    | ⟨1, _⟩ => rfl)
  have ec : ∀ k : Fin 128, idx_main_v50 (ix2 r k) = ix2 r 0 := fun k => funext fun a => Fin.ext (by
    match a with
    | ⟨0, _⟩ => rfl
    | ⟨1, _⟩ => rfl)
  rw [eb]
  show (∑ k : Fin 128, val_main_v51 (F := Ideal) x0 x1 x2 x5 x6 (lidx_main_v52 (ix2 r q) k) * x3 (ridx_main_v52 (ix2 r q) k)) + val_main_v53 (F := Ideal) x4 (ix2 0 q)
    = (∑ k : Fin 128, (val_main_v48 (F := Ideal) x0 x1 x2 x5 x6 (ix2 r k) * val_main_v49 (F := Ideal) x6 (ix2 r 0)) * x3 (ix2 k q)) + val_main_v53 (F := Ideal) x4 (ix2 0 q)
  refine congrArg (· + val_main_v53 (F := Ideal) x4 (ix2 0 q)) (Finset.sum_congr rfl fun k _ => ?_)
  rw [el, er, val_main_v51_apply, val_main_v50_apply, ec]
  rfl

theorem layer1_eq (x0 : FVec Ideal S100000x128 .f32) (x1 : FVec Ideal S128x128 .f32) (x2 : FVec Ideal S128 .f32)
    (x5 x6 : IVec S1600000 32) :
    val_main_v38 (F := Ideal) x0 x1 x2 x5 x6
      = Cert.Dense.layer1 (val_main_v27 (F := Ideal) x0 x5 x6) (val_main_v28 (F := Ideal) x6) (val_main_v36 (F := Ideal) x5) x1 (val_main_v32 (F := Ideal) x2) := by
  funext i
  obtain ⟨r, q, rfl⟩ : ∃ (r : Fin 100000) (q : Fin 128), i = ix2 r q := ⟨i 0, i 1, eq_ix2 i⟩
  rw [val_main_v38_apply, val_main_v35_apply, val_main_v34_apply, val_main_v31_apply, val_main_v33_apply, val_main_v37_apply, val_main_call0_v0_apply]
  have el : ∀ k : Fin 128, lidx_main_v31 (ix2 r q) k = ix2 r k := fun k => funext fun a => Fin.ext (by
    match a with
    | ⟨0, _⟩ => rfl
    | ⟨1, _⟩ => rfl)
  have er : ∀ k : Fin 128, ridx_main_v31 (ix2 r q) k = ix2 k q := fun k => funext fun a => Fin.ext (by
    match a with
    | ⟨0, _⟩ => rfl
    | ⟨1, _⟩ => rfl)
  have eb : idx_main_v33 (ix2 r q) = ix2 0 q := funext fun a => Fin.ext (by
    match a with
    | ⟨0, _⟩ => rfl
    | ⟨1, _⟩ => rfl)
  have es : idx_main_v37 (ix2 r q) = ix2 r 0 := funext fun a => Fin.ext (by
    match a with
    | ⟨0, _⟩ => rfl
    | ⟨1, _⟩ => rfl)
  have ec : ∀ k : Fin 128, idx_main_v29 (ix2 r k) = ix2 r 0 := fun k => funext fun a => Fin.ext (by
    match a with
    | ⟨0, _⟩ => rfl
    | ⟨1, _⟩ => rfl)
  rw [eb, es]
  show max ((∑ k : Fin 128, val_main_v30 (F := Ideal) x0 x5 x6 (lidx_main_v31 (ix2 r q) k) * x1 (ridx_main_v31 (ix2 r q) k)) + val_main_v32 (F := Ideal) x2 (ix2 0 q))
        (Ideal.ofBits .f32 0x00000000#32) * val_main_v36 (F := Ideal) x5 (ix2 r 0)
    = max ((∑ k : Fin 128, (val_main_v27 (F := Ideal) x0 x5 x6 (ix2 r k) * val_main_v28 (F := Ideal) x6 (ix2 r 0)) * x1 (ix2 k q)) + val_main_v32 (F := Ideal) x2 (ix2 0 q))
        (Ideal.ofBits .f32 0x00000000#32) * val_main_v36 (F := Ideal) x5 (ix2 r 0)
  refine congrArg (fun z => max (z + val_main_v32 (F := Ideal) x2 (ix2 0 q)) (Ideal.ofBits .f32 0x00000000#32) * val_main_v36 (F := Ideal) x5 (ix2 r 0)) (Finset.sum_congr rfl fun k _ => ?_)
  rw [el, er, val_main_v30_apply, val_main_v29_apply, ec]
  rfl

end Cert.ReferenceIdeal.Layers
end
-- ==== Proof.Bridge.lean ====
/-
  The kernel's result and the reference's result are one function of the arguments.

  Both are the second dense layer of aggregated messages, with the same in-degree column, weights and bias;
  so it suffices that the aggregated messages agree.  The second messages are the rows of the first layer's
  result named by the edges' sources, on both sides; the first layer's results agree once ITS aggregated
  messages agree; and the first messages agree because gathering a row and scaling it by the gathered scale of
  its node is gathering the scaled row.  A vector reshaped into a column is the vector broadcast into a column,
  and the bias reshaped into a row is the bias broadcast into a row.
-/
import proofs.«174261_j77584289235636_2_alg».proof.Proof.HostSide
import proofs.«174261_j77584289235636_2_alg».proof.Proof.Messages
import proofs.«174261_j77584289235636_2_alg».proof.Proof.RefLayers
import Idealize.ShloMosaic.Lib.Pipeline.Value

noncomputable section

namespace Cert.Bridge

open Idealize.ShloMosaic Idealize.ShloMosaic.ValueIdx
open Cert.KernelIdeal Cert.KernelIdeal.Gen Cert.KernelIdeal.HostSide

/-- A vector reshaped into a column is the vector broadcast into a column. -/
theorem column_eq (v : FVec Ideal S100000 .f32) (h : S100000.BroadcastsInDim S100000x1 ![0]) :
    column v = broadcastInDim S100000x1 ![0] h v := by
  funext i
  obtain ⟨r, z, rfl⟩ : ∃ (r : Fin 100000) (z : Fin 1), i = ix2 r z := ⟨i 0, i 1, eq_ix2 i⟩
  obtain rfl : z = 0 := Subsingleton.elim _ _
  unfold column
  rw [shapeCast_apply v shapeCasts_S100000_S100000x1 (ix2 r 0) (ix1 r) (by
      simp only [Shape.rowMajor_val_one, Shape.rowMajor_val_two]; show r.val = r.val * 1 + 0; omega)]
  exact (broadcastInDim_apply ![0] h v (ix2 r 0) (ix1 r) (fun a => by
    match a with
    | ⟨0, _⟩ => rfl)).symm

/-- The first layer's bias reshaped into a row is the bias broadcast into a row. -/
theorem biasRow1_eq (b : FVec Ideal S128 .f32) (h : S128.BroadcastsInDim S1x128 ![1]) :
    biasRow1 b = broadcastInDim S1x128 ![1] h b := by
  funext i
  obtain ⟨z, q, rfl⟩ : ∃ (z : Fin 1) (q : Fin 128), i = ix2 z q := ⟨i 0, i 1, eq_ix2 i⟩
  obtain rfl : z = 0 := Subsingleton.elim _ _
  unfold biasRow1
  rw [shapeCast_apply b shapeCasts_S128_S1x128 (ix2 0 q) (ix1 q) (by
      simp only [Shape.rowMajor_val_one, Shape.rowMajor_val_two]; show q.val = 0 * 128 + q.val; omega)]
  exact (broadcastInDim_apply ![1] h b (ix2 0 q) (ix1 q) (fun a => by
    match a with
    | ⟨0, _⟩ => rfl)).symm

/-- The second layer's bias reshaped into a row is the bias broadcast into a row. -/
theorem biasRow2_eq (b : FVec Ideal S64 .f32) (h : S64.BroadcastsInDim S1x64 ![1]) :
    biasRow2 b = broadcastInDim S1x64 ![1] h b := by
  funext i
  obtain ⟨z, q, rfl⟩ : ∃ (z : Fin 1) (q : Fin 64), i = ix2 z q := ⟨i 0, i 1, eq_ix2 i⟩
  obtain rfl : z = 0 := Subsingleton.elim _ _
  unfold biasRow2
  rw [shapeCast_apply b shapeCasts_S64_S1x64 (ix2 0 q) (ix1 q) (by
      simp only [Shape.rowMajor_val_one, Shape.rowMajor_val_two]; show q.val = 0 * 64 + q.val; omega)]
  exact (broadcastInDim_apply ![1] h b (ix2 0 q) (ix1 q) (fun a => by
    match a with
    | ⟨0, _⟩ => rfl)).symm

variable (x0 : FVec Ideal S100000x128 .f32) (x1 : FVec Ideal S128x128 .f32) (x2 : FVec Ideal S128 .f32)
  (x3 : FVec Ideal S128x64 .f32) (x4 : FVec Ideal S64 .f32) (x5 x6 : IVec S1600000 32)

/-- The degree scales are the same term in both programs. -/
theorem scale_out : invSqrtDeg x5 = Cert.ReferenceIdeal.Read.val_main_v10 (F := Ideal) x5 := rfl
theorem scale_in : invSqrtDeg x6 = Cert.ReferenceIdeal.Read.val_main_v14 (F := Ideal) x6 := rfl

/-- The first aggregated messages agree: gathering then scaling is scaling then gathering. -/
theorem agg1_eq : aggregate (messages1 x0 x5) x6 = Cert.ReferenceIdeal.Read.val_main_v27 (F := Ideal) x0 x5 x6 := by
  unfold messages1
  rw [Cert.KernelIdeal.Messages.scaled_messages x0 (invSqrtDeg x5) (srcRows x5) _ _
    Cert.ReferenceIdeal.Facts₀.bcast_S100000_S100000x1_0 Cert.ReferenceIdeal.Facts₀.bcast_S100000x1_S100000x128_0_1]
  rfl

/-- The first layer's results agree. -/
theorem hidden_eq : firstLayer x0 x1 x2 x5 x6 = Cert.ReferenceIdeal.Read.val_main_v38 (F := Ideal) x0 x1 x2 x5 x6 := by
  rw [Cert.ReferenceIdeal.Layers.layer1_eq]
  unfold firstLayer
  rw [agg1_eq, column_eq _ Cert.ReferenceIdeal.Facts₀.bcast_S100000_S100000x1_0, column_eq _ Cert.ReferenceIdeal.Facts₀.bcast_S100000_S100000x1_0,
    biasRow1_eq _ Cert.ReferenceIdeal.Facts₀.bcast_S128_S1x128_1]
  rfl

/-- The second aggregated messages agree. -/
theorem agg2_eq : aggregate (messages2 (firstLayer x0 x1 x2 x5 x6) x5) x6 = Cert.ReferenceIdeal.Read.val_main_v48 (F := Ideal) x0 x1 x2 x5 x6 := by
  rw [hidden_eq]
  rfl

/-- THE BRIDGE: the kernel's result term is the reference's last stage, as functions of the arguments. -/
theorem result_eq_reference :
    result x0 x1 x2 x3 x4 x5 x6 = Cert.ReferenceIdeal.Read.val_main_v55 (F := Ideal) x0 x1 x2 x3 x4 x5 x6 := by
  rw [Cert.ReferenceIdeal.Layers.layer2_eq]
  unfold result
  rw [agg2_eq, column_eq _ Cert.ReferenceIdeal.Facts₀.bcast_S100000_S100000x1_0, biasRow2_eq _ Cert.ReferenceIdeal.Facts₀.bcast_S64_S1x64_1]
  rfl

end Cert.Bridge

end
-- ==== Proof.lean ====
/-
  The certificate of a two-layer graph convolution: a Pallas implementation against its jnp reference.

  Both programs compute, from node features, two weight matrices with biases and an edge list (sources,
  destinations): the inverse square roots of the out- and in-degrees cut off below at one; messages along the
  edges, summed into their destinations; a dense layer (scale by the in-degree factor, multiply by the weights,
  add the bias); after the first layer the maximum with zero and the out-degree factor for the next round of
  messages.  The Pallas implementation scales a message after gathering it where the reference scales before,
  carries messages and the hidden layer in a narrower float format, and runs each dense layer as a pallas_call
  over 20 blocks of 5000 nodes.

  Over the extended reals a change of float format is the identity, a matrix product is a plain sum, and
  scaling commutes with gathering because both gathers read the same clamped row; no operation is reordered,
  so the two results are equal for ALL inputs — the finiteness precondition is never opened.

  The three frames are the generated ones (the reference's: its generated run with the result dropped); the
  idealization rewrote nothing, so `preserves` is trivial; `algebraic` joins the kernel's run with its
  result array named (KernelRun), that array as one term of the arguments (HostSide, over Layer1Array and
  Layer2Array), the reference's generated run, and the equality of the two terms (Bridge).
-/
import proofs.«174261_j77584289235636_2_alg».proof.Defs
import proofs.«174261_j77584289235636_2_alg».proof.Proof.Gen.Kernel
import proofs.«174261_j77584289235636_2_alg».proof.Proof.Gen.Kernel.Frame
import proofs.«174261_j77584289235636_2_alg».proof.Proof.Gen.KernelIdeal
import proofs.«174261_j77584289235636_2_alg».proof.Proof.Gen.KernelIdeal.Frame
import proofs.«174261_j77584289235636_2_alg».proof.Proof.Gen.ReferenceIdeal
import proofs.«174261_j77584289235636_2_alg».proof.Proof.Gen.Pre_finite_inputs
import proofs.«174261_j77584289235636_2_alg».proof.Proof.Gen.ReferenceIdeal.Run
import proofs.«174261_j77584289235636_2_alg».proof.Proof.Gen.ReferenceIdeal.Read
import proofs.«174261_j77584289235636_2_alg».proof.Proof.KernelRun
import proofs.«174261_j77584289235636_2_alg».proof.Proof.HostSide
import proofs.«174261_j77584289235636_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs run, their arguments unchanged, and end with
    the same result array: the kernel's is `HostSide.result` of its arguments, the reference's its last stage of
    its own, and the two are one function. -/
theorem algebraic : Cert.algebraic_KernelIdeal_ReferenceIdeal := by
  intro m ρ m' ρ' _ hagree
  refine ⟨fun c => Cert.KernelIdeal.HostSide.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.HostSide.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, (hagree c).1, (hagree c).2.1, (hagree c).2.2.1, (hagree c).2.2.2.1,
      (hagree c).2.2.2.2.1, (hagree c).2.2.2.2.2.1, (hagree c).2.2.2.2.2.2]
    exact (Cert.Bridge.result_eq_reference _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
